-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024x256 : Shape := ⟨2, ![1024, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S131072x256 .f32) (main_arg1 : FVec F S1024x256 .f32) (main_arg2 : FVec F S1024x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S131072x256 : Shape := ⟨2, ![131072, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1024x256, .bf16⟩
  | .hbm, ⟨11, _⟩ => ⟨S1024x256, .bf16⟩
  | .hbm, ⟨12, _⟩ => ⟨S131072x256, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1x1024, .f32⟩
  | .local _ .vmem, ⟨5, _⟩ => ⟨S1024x256, .f32⟩
  | .local _ .vmem, ⟨6, _⟩ => ⟨S1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x256_S1024_d1 : S1024x256.ReducesTo [1] S1024
  h_S_ : 0 < S_.numel
  shapeCasts_S1024_S1x1024 : S1024.ShapeCasts S1x1024
  bcast_S_S1x1024 : S_.BroadcastsInDim S1x1024 (![] : Fin 0 → Fin S1x1024.rank)
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x256_S1024 : S1024x256.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S131072x256.size a
  hwx0_4 : ∀ i : grid0.Coords, EltTy.bits .f32 = 32 ∨ (Rect.block (s := S131072x256) S1024x256.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S1024x256 : Shape := ⟨2, ![1024, 256]⟩
abbrev S_ : Shape := ⟨0, ![]⟩
abbrev S131072 : Shape := ⟨1, ![131072]⟩
abbrev S131072x1 : Shape := ⟨2, ![131072, 1]⟩
abbrev S1024 : Shape := ⟨1, ![1024]⟩
abbrev S131072x1024 : Shape := ⟨2, ![131072, 1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S1024x256, .f32⟩
  | .hbm, ⟨3, _⟩ => ⟨S131072x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S131072x1024, .f32⟩
  | .hbm, ⟨11, _⟩ => ⟨S1x1024, .f32⟩
  | .hbm, ⟨12, _⟩ => ⟨S131072x1024, .f32⟩
  | .hbm, ⟨13, _⟩ => ⟨S131072x1024, .f32⟩
  | .hbm, ⟨14, _⟩ => ⟨S131072x1024, .f32⟩
  | .hbm, ⟨15, _⟩ => ⟨S_, .f32⟩
  | .hbm, ⟨16, _⟩ => ⟨S131072x1024, .f32⟩
  | .hbm, ⟨17, _⟩ => ⟨S131072x1024, .f32⟩
  | .hbm, ⟨18, _⟩ => ⟨S131072x1024, .f32⟩
  | .hbm, ⟨19, _⟩ => ⟨S131072x1024, .f32⟩
  | .hbm, ⟨20, _⟩ => ⟨S_, .f32⟩
  | .hbm, ⟨21, _⟩ => ⟨S131072x1024, .f32⟩
  | .hbm, ⟨22, _⟩ => ⟨S131072x1024, .f32⟩
  | .hbm, ⟨23, _⟩ => ⟨S131072x1024, .f32⟩
  | .hbm, ⟨24, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S1024x256_S1024_d1 : S1024x256.ReducesTo [1] S1024
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  dot_S131072x256_S1024x256_S131072x1024_1_1_0_0_n_n_wf : DotDims.WF S131072x256 S1024x256 S131072x1024 [1] [1] [0] [0] [] []
  dot_S131072x1024_S1024x256_S131072x256_1_0_0_1_n_n_wf : DotDims.WF S131072x1024 S1024x256 S131072x256 [1] [0] [0] [1] [] []

variable [Facts₀]

def dot_S131072x256_S1024x256_S131072x1024_1_1_0_0_n_n : DotDims S131072x256 S1024x256 S131072x1024 where
  lhsContracting := [1]
  rhsContracting := [1]
  lhsNonContracting := [0]
  rhsNonContracting := [0]
  lhsBatch := []
  rhsBatch := []
  wf := dot_S131072x256_S1024x256_S131072x1024_1_1_0_0_n_n_wf
def dot_S131072x1024_S1024x256_S131072x256_1_0_0_1_n_n : DotDims S131072x1024 S1024x256 S131072x256 where
  lhsContracting := [1]
  rhsContracting := [0]
  lhsNonContracting := [0]
  rhsNonContracting := [1]
  lhsBatch := []
  rhsBatch := []
  wf := dot_S131072x1024_S1024x256_S131072x256_1_0_0_1_n_n_wf

class Facts : Prop extends Facts₀ where

variable [Facts]
-- ==== Proof.RbfMix.lean ====
/-
  The radial-basis mixture that both programs compute, as ONE function of the three argument arrays
  `x : [131072, 256]`, `p : [1024, 256]` (the prototypes) and `w : [1024, 256]` (the projection), on the extended reals:

      mix x p w (b, d) = ∑ q, exp (⟨x_b, p_q⟩ − ‖x_b‖² / 2 − ‖p_q‖² / 2) · w (q, d).

  The exponent is written the way the kernel adds it up, `⟨x_b, p_q⟩ + ‖x_b‖² · (−1/2) + (−1/2) · ‖p_q‖²`.  The reference
  spells the same number `−((‖x_b‖² + ‖p_q‖²) − 2 · ⟨x_b, p_q⟩) / 2`.  The two spellings agree when the three numbers
  are REAL (distributing the halving and the sign over the sum fails at the infinities): `exponent_law`.  A row's
  squared norm and an inner product of rows with real entries are real: `normSqB_coe`, `normSqP_coe`, `inner_coe`
  (the coercion of a finite sum is the sum of the coercions, `coe_sum`).  Also here: the three float literals the
  programs spell (2, −1/2, 1) as the reals they denote.
-/
import Idealize.ShloMosaic.PureOps.Ideal
import Idealize.ShloMosaic.PureOps.Ideal.Laws
import Idealize.ShloMosaic.Lib.ValueIdx

noncomputable section

namespace Cert.RbfMix

open Idealize.ShloMosaic Idealize.ShloMosaic.ValueIdx

/-- The shape of `x` and of the result, and the shape of the prototypes and of the projection. -/
abbrev SB : Shape := ⟨2, ![131072, 256]⟩
abbrev SP : Shape := ⟨2, ![1024, 256]⟩

/-! ## The literals -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `-0.5` denotes the real −1/2. -/
theorem ofBits_negHalf : Ideal.ofBits .f32 0xBF000000#32 = ((-(1 / 2) : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-! ## The function -/

/-- −1/2 as an extended real. -/
def negHalf : EReal := ((-(1 / 2) : ℝ) : EReal)

/-- `‖x_b‖²`: the sum of the squares of row `b` of `x`. -/
def normSqB (x : SB.Idx → EReal) (b : Fin 131072) : EReal := ∑ k : Fin 256, x (ix2 b k) * x (ix2 b k)

/-- `‖p_q‖²`: the sum of the squares of prototype `q`. -/
def normSqP (p : SP.Idx → EReal) (q : Fin 1024) : EReal := ∑ k : Fin 256, p (ix2 q k) * p (ix2 q k)

/-- `⟨x_b, p_q⟩`: the inner product of row `b` of `x` with prototype `q`. -/
def inner (x : SB.Idx → EReal) (p : SP.Idx → EReal) (b : Fin 131072) (q : Fin 1024) : EReal :=
  ∑ k : Fin 256, x (ix2 b k) * p (ix2 q k)

/-- The exponent `−‖x_b − p_q‖² / 2`, expanded: `⟨x_b, p_q⟩ + ‖x_b‖² · (−1/2) + (−1/2) · ‖p_q‖²`. -/
def expo (x : SB.Idx → EReal) (p : SP.Idx → EReal) (b : Fin 131072) (q : Fin 1024) : EReal :=
  inner x p b q + normSqB x b * negHalf + negHalf * normSqP p q

/-- The mixture at row `b`, column `d`: the prototypes' projection rows weighted by the Gaussian of the distance. -/
def mixAt (x : SB.Idx → EReal) (p w : SP.Idx → EReal) (b : Fin 131072) (d : Fin 256) : EReal :=
  ∑ q : Fin 1024, Ideal.exp (expo x p b q) * w (ix2 q d)

/-- The whole result array. -/
def mix (x : SB.Idx → EReal) (p w : SP.Idx → EReal) : SB.Idx → EReal := fun i => mixAt x p w (i 0) (i 1)

theorem mix_ix2 (x : SB.Idx → EReal) (p w : SP.Idx → EReal) (b : Fin 131072) (d : Fin 256) :
    mix x p w (ix2 b d) = mixAt x p w b d := rfl

/-! ## Real entries -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem normSqB_coe (x : SB.Idx → EReal) (xr : SB.Idx → ℝ) (hx : ∀ i, x i = (xr i : EReal)) (b : Fin 131072) :
    normSqB x b = ((∑ k : Fin 256, xr (ix2 b k) * xr (ix2 b k) : ℝ) : EReal) := by
  unfold normSqB
  rw [coe_sum]
  exact Finset.sum_congr rfl fun k _ => by rw [hx, EReal.coe_mul]

theorem normSqP_coe (p : SP.Idx → EReal) (pr : SP.Idx → ℝ) (hp : ∀ i, p i = (pr i : EReal)) (q : Fin 1024) :
    normSqP p q = ((∑ k : Fin 256, pr (ix2 q k) * pr (ix2 q k) : ℝ) : EReal) := by
  unfold normSqP
  rw [coe_sum]
  exact Finset.sum_congr rfl fun k _ => by rw [hp, EReal.coe_mul]

theorem inner_coe (x : SB.Idx → EReal) (p : SP.Idx → EReal) (xr : SB.Idx → ℝ) (pr : SP.Idx → ℝ)
    (hx : ∀ i, x i = (xr i : EReal)) (hp : ∀ i, p i = (pr i : EReal)) (b : Fin 131072) (q : Fin 1024) :
    inner x p b q = ((∑ k : Fin 256, xr (ix2 b k) * pr (ix2 q k) : ℝ) : EReal) := by
  unfold inner
  rw [coe_sum]
  exact Finset.sum_congr rfl fun k _ => by rw [hx, hp, EReal.coe_mul]

/-- On REAL numbers `a = ‖x_b‖²`, `b = ‖p_q‖²`, `c = ⟨x_b, p_q⟩`: `−((a + b) − 2c) / 2 = c + a · (−1/2) + (−1/2) · b`. -/
theorem exponent_law (a b c : ℝ) :
    Ideal.div (-(((a : EReal) + (b : EReal)) - ((2 : ℝ) : EReal) * (c : EReal))) ((2 : ℝ) : EReal)
      = (c : EReal) + (a : EReal) * negHalf + negHalf * (b : EReal) := by
  rw [Ideal.div_coe (by norm_num : (2 : ℝ) ≠ 0)]
  unfold negHalf
  simp only [← EReal.coe_mul, ← EReal.coe_add, ← EReal.coe_sub, ← EReal.coe_neg]
  congr 1
  ring

/-- So, for arrays with real entries, the reference's spelling of the exponent is `expo`. -/
theorem ref_exponent_eq (x : SB.Idx → EReal) (p : SP.Idx → EReal) (xr : SB.Idx → ℝ) (pr : SP.Idx → ℝ)
    (hx : ∀ i, x i = (xr i : EReal)) (hp : ∀ i, p i = (pr i : EReal)) (b : Fin 131072) (q : Fin 1024) :
    Ideal.div (-((normSqB x b + normSqP p q) - ((2 : ℝ) : EReal) * inner x p b q)) ((2 : ℝ) : EReal) = expo x p b q := by
  unfold expo
  rw [normSqB_coe x xr hx, normSqP_coe p pr hp, inner_coe x p xr pr hx hp]
  exact exponent_law _ _ _

end Cert.RbfMix

end
-- ==== Proof.Finite.lean ====
/-
  From the precondition to real entries.  The precondition is the conjunction, over the three argument arrays, of
  "every entry's absolute value is below +∞".  On the extended reals `|v| < +∞` fails exactly at `⊥` and `⊤`, so it says
  that `v` is a real number.  Each `all` is a reduction by `and` from 1 into one result, which is 1 only if every
  compared entry gave 1.
-/
import proofs.«166600_j43069932044620_2_alg».proof.Pre_finite_inputs
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs

/-- A rank-0 array has one index. -/
instance : Subsingleton S_.Idx := ⟨fun a b => funext fun d => d.elim0⟩

/-- The pattern of `+inf` denotes `⊤`. -/
theorem ofBits_inf : Ideal.ofBits .f32 0x7F800000#32 = ⊤ := by
  simp [Ideal.ofBits, Ideal.ieee]

/-- An extended real whose absolute value compares below `+∞` is a real number. -/
theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  rw [Ideal.cmpf_def, Ideal.hostAbsf_def, Ideal.absf_def, Ideal.ofBits_def, ofBits_inf] at h
  induction v using EReal.rec with
  | bot => simp [Ideal.cmp] at h
  | top => simp [Ideal.cmp] at h
  | coe r => exact ⟨r, rfl⟩

variable [Facts]
open Facts

/-- Under the precondition every entry of the three argument arrays is a real number. -/
theorem entries_real (x : FVec Ideal S131072x256 .f32) (p w : FVec Ideal S1024x256 .f32)
    (h : fn (F := Ideal) x p w = fun _ => 1#1) :
    (∀ i, ∃ r : ℝ, x i = (r : EReal)) ∧ (∀ i, ∃ r : ℝ, p i = (r : EReal)) ∧ (∀ i, ∃ r : ℝ, w i = (r : EReal)) := by
  have h0 := congrFun h ValueIdx.ix0
  dsimp only [fn] at h0
  obtain ⟨h12, h3⟩ := IntOp.andi_eq_one.1 h0
  obtain ⟨h1, h2⟩ := IntOp.andi_eq_one.1 h12
  exact ⟨fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Pre_finite_inputs.Finite

end
-- ==== Proof.RefMix.lean ====
/-
  The reference's result is the radial-basis mixture `RbfMix.mix` of its arguments, when `x` and the prototypes have
  real entries.  Read one operation at a time: at (b, q) the reference forms `‖x_b‖²` and `‖p_q‖²` (each a host sum
  from a zero initial value), adds them, subtracts `2 · ⟨x_b, p_q⟩`, negates, divides by 2 — which on real numbers is
  the expanded exponent (`RbfMix.ref_exponent_eq`) — exponentiates, and contracts with the projection over `q`.
-/
import proofs.«166600_j43069932044620_2_alg».proof.Proof.Gen.ReferenceIdeal.Read
import proofs.«166600_j43069932044620_2_alg».proof.Proof.RbfMix

noncomputable section

namespace Cert.ReferenceIdeal.RefValue

open Cert.ReferenceIdeal Cert.ReferenceIdeal.Read Idealize.ShloMosaic Idealize.ShloMosaic.ValueIdx Cert.RbfMix

/-! ## Where each operation reads its operands, at the index (b, q) of the [131072, 1024] intermediates -/

theorem rowOfX (b : Fin 131072) (q : Fin 1024) (k : Fin 256) :
    idx_main_v1 (idx_main_v2 (idx_main_v7 (ix2 b q))) k = ix2 b k :=
  funext fun a => Fin.ext (by match a with | ⟨0, _⟩ => rfl | ⟨1, _⟩ => rfl)

theorem rowOfP (b : Fin 131072) (q : Fin 1024) (k : Fin 256) :
    idx_main_v4 (idx_main_v6 (idx_main_v8 (ix2 b q))) k = ix2 q k :=
  funext fun a => Fin.ext (by match a with | ⟨0, _⟩ => rfl | ⟨1, _⟩ => rfl)

theorem crossLeft (b : Fin 131072) (q : Fin 1024) (k : Fin 256) : lidx_main_v5 (ix2 b q) k = ix2 b k :=
  funext fun a => Fin.ext (by match a with | ⟨0, _⟩ => rfl | ⟨1, _⟩ => rfl)

theorem crossRight (b : Fin 131072) (q : Fin 1024) (k : Fin 256) : ridx_main_v5 (ix2 b q) k = ix2 q k :=
  funext fun a => Fin.ext (by match a with | ⟨0, _⟩ => rfl | ⟨1, _⟩ => rfl)

theorem mixLeft (b : Fin 131072) (d : Fin 256) (q : Fin 1024) : lidx_main_v17 (ix2 b d) q = ix2 b q :=
  funext fun a => Fin.ext (by match a with | ⟨0, _⟩ => rfl | ⟨1, _⟩ => rfl)

theorem mixRight (b : Fin 131072) (d : Fin 256) (q : Fin 1024) : ridx_main_v17 (ix2 b d) q = ix2 q d :=
  funext fun a => Fin.ext (by match a with | ⟨0, _⟩ => rfl | ⟨1, _⟩ => rfl)

/-! ## The exponent, then the result -/

/-- The reference's exponent at (b, q), for real entries, is the expanded `−‖x_b − p_q‖² / 2`. -/
theorem exponent_eq (x : SB.Idx → EReal) (p : SP.Idx → EReal) (xr : SB.Idx → ℝ) (pr : SP.Idx → ℝ)
    (hx : ∀ i, x i = (xr i : EReal)) (hp : ∀ i, p i = (pr i : EReal)) (b : Fin 131072) (q : Fin 1024) :
    val_main_v15 (F := Ideal) x p (ix2 b q) = expo x p b q := by
  rw [val_main_v15_apply, val_main_v13_apply, val_main_v12_apply, val_main_v9_apply, val_main_v11_apply,
    val_main_v7_apply, val_main_v2_apply, val_main_v1_apply, val_main_v8_apply, val_main_v6_apply, val_main_v4_apply,
    val_main_v5_apply, val_main_v10_apply, val_main_v14_apply]
  simp only [val_main_v0_apply, val_main_v3_apply, val_main_cst_apply, val_main_cst_0_apply, val_main_cst_1_apply,
    val_main_cst_2_apply, rowOfX, rowOfP, crossLeft, crossRight, Ideal.mulf_def, Ideal.addf_def, Ideal.subf_def,
    Ideal.hostNegf_def, Ideal.negf_def, Ideal.hostDivf_def, Ideal.ofBits_def, Ideal.ofBits_zero_f32, zero_add, ofBits_two]
  exact ref_exponent_eq x p xr pr hx hp b q

/-- The reference's result array is the mixture. -/
theorem result_eq (x : SB.Idx → EReal) (p w : SP.Idx → EReal) (xr : SB.Idx → ℝ) (pr : SP.Idx → ℝ)
    (hx : ∀ i, x i = (xr i : EReal)) (hp : ∀ i, p i = (pr i : EReal)) :
    val_main_v17 (F := Ideal) x p w = mix x p w := by
  funext i
  obtain ⟨b, d, rfl⟩ : ∃ (b : Fin 131072) (d : Fin 256), i = ix2 b d := ⟨i 0, i 1, eq_ix2 i⟩
  rw [val_main_v17_apply, mix_ix2]
  unfold mixAt
  refine Finset.sum_congr rfl fun q _ => ?_
  rw [mixLeft, mixRight, val_main_v16_apply, exponent_eq x p xr pr hx hp b q, Ideal.hostUnary_exp_def]

end Cert.ReferenceIdeal.RefValue

end
-- ==== Proof.Body.lean ====
/-
  What the kernel's body computes from its four loaded blocks, read at one index of the stored [1024, 256] block.
  With `x0` the 1024 rows of `x` the grid point holds, `x1` the prototypes, `x2` the projection and `x3` the one row
  of scaled prototype norms, the stored value at (a, d) is

      ∑ q, exp ((∑ k, (x0 (a, k) · 1) · x1 (q, k)) + (∑ k, x0 (a, k) · x0 (a, k)) · (−1/2) + x3 (0, q)) · x2 (q, d).

  The pieces: a lane sum is the sum over the row (`rowSum_apply`); the sum kept as a column and broadcast along the rows
  (`column_apply`, `columnBroadcast_apply`); the one-row block broadcast down the rows; the two matrix products as sums
  over their contracted axis (`cross_apply`: both operands contracted along their second axis; `weighted_apply`: rows times
  columns); a change of float format is the identity on the extended reals.
-/
import proofs.«166600_j43069932044620_2_alg».proof.Proof.Gen.KernelIdeal.Skeleton
import proofs.«166600_j43069932044620_2_alg».proof.Proof.RbfMix
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.RbfMix

/-! ## The lane sum, the column it is kept as, and the two broadcasts -/

/-- A row's lane sum is the sum over the row's 256 entries. -/
theorem rowSum_apply (v : FVec Ideal S1024x256 .f32) (h : S1024x256.Reduces [1] S1024) (hφ : FKind.Formats .f32)
    (hacc : (0x00000000#32 : BitVec 32) = 0x00000000#32) (a : Fin 1024) :
    multiReduction .add [1] S1024 v 0x00000000#32 h hφ hacc (ix1 a) = ∑ k : Fin 256, v (ix2 a k) := by
  refine (Ideal.multiReduction_add_single v 0x00000000#32 h hφ hacc (ix1 a)).trans ?_
  exact Finset.sum_congr rfl fun k _ => congrArg v (funext fun ax => Fin.ext (by
    match ax with
    | ⟨0, _⟩ => rfl
    | ⟨1, _⟩ => rfl))

/-- A [1024] vector kept as a [1024, 1] column reads, at (a, 0), the vector at a. -/
theorem column_apply (v : FVec Ideal S1024 .f32) (h : S1024.ShapeCasts S1024x1) (a : Fin 1024) (u : Fin 1) :
    shapeCast S1024x1 v h (ix2 a u) = v (ix1 a) :=
  shapeCast_apply v h _ _ (by
    have hu : u.val = 0 := by omega
    rw [Shape.rowMajor_val_two, Shape.rowMajor_val_one]
    show a.val = a.val * 1 + u.val
    omega)

/-- A [1024, 1] column broadcast to [1024, 1024] reads, at (a, q), the column at a. -/
theorem columnBroadcast_apply (v : FVec Ideal S1024x1 .f32) (h : S1024x1.Broadcasts S1024x1024) (a q : Fin 1024) :
    broadcastTo S1024x1024 v h (ix2 a q) = v (ix2 a (0 : Fin 1)) := by
  refine broadcastTo_apply v h (ix2 a q) (ix2 a (0 : Fin 1)) fun ax => ?_
  match ax with
  | ⟨0, _⟩ =>
    show a.val = if (1024 : Nat) = 1 then 0 else a.val
    rw [if_neg (by decide)]
  | ⟨1, _⟩ =>
    show 0 = if (1 : Nat) = 1 then 0 else q.val
    rw [if_pos rfl]

/-- The one-row block broadcast down the 1024 rows reads, at (a, q), the row at q. -/
theorem rowBroadcast_apply (v : FVec Ideal S1x1024 .f32) (h : S1x1024.Broadcasts S1024x1024) (a q : Fin 1024) :
    broadcastTo S1024x1024 v h (ix2 a q) = v (ix2 (0 : Fin 1) q) :=
  broadcastTo_1b_ab_apply v h a q

/-- The exponential of a vector, read at an index. -/
theorem exp_apply {s : Shape} {φ : FTy} (v : FVec Ideal s φ) (i : s.Idx) : exp v i = Ideal.exp (v i) := rfl

/-! ## The two matrix products -/

theorem crossL0 (i : S1024x1024.Idx) (c : dot_S1024x256_S1024x256_S1024x1024_1_1_0_0_n_n.contr.Idx) :
    (dot_S1024x256_S1024x256_S1024x1024_1_1_0_0_n_n.lhsIdx i c 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl

theorem crossR0 (i : S1024x1024.Idx) (c : dot_S1024x256_S1024x256_S1024x1024_1_1_0_0_n_n.contr.Idx) :
    (dot_S1024x256_S1024x256_S1024x1024_1_1_0_0_n_n.rhsIdx i c 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl

/-- The first product, both operands contracted along their second axis, into a zero accumulator: at (a, q) the
    inner product of row a of the left operand with row q of the right. -/
theorem cross_apply (l r : FVec Ideal S1024x256 .bf16) (a q : Fin 1024) :
    matmul dot_S1024x256_S1024x256_S1024x1024_1_1_0_0_n_n none l r (constant S1024x1024 .f32 0x00000000#32) (ix2 a q)
      = ∑ k : Fin 256, l (ix2 a k) * r (ix2 q k) := by
  refine (Ideal.matmul_constant_zero_apply dot_S1024x256_S1024x256_S1024x1024_1_1_0_0_n_n none l r (ix2 a q)).trans ?_
  rw [← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 a q) ((ValueIdx.contrEquiv1 dot_S1024x256_S1024x256_S1024x1024_1_1_0_0_n_n 256 rfl rfl).symm k) = ix2 a k := funext fun ax => Fin.ext (by
    match ax with
    | ⟨0, _⟩ => exact crossL0 _ _
    | ⟨1, _⟩ => exact (dot_S1024x256_S1024x256_S1024x1024_1_1_0_0_n_n.lhsIdx_val_of_single rfl _ _).trans hk)
  have er : dot_S1024x256_S1024x256_S1024x1024_1_1_0_0_n_n.rhsIdx (ix2 a q) ((ValueIdx.contrEquiv1 dot_S1024x256_S1024x256_S1024x1024_1_1_0_0_n_n 256 rfl rfl).symm k) = ix2 q k := funext fun ax => Fin.ext (by
    match ax with
    | ⟨0, _⟩ => exact crossR0 _ _
    | ⟨1, _⟩ => exact (dot_S1024x256_S1024x256_S1024x1024_1_1_0_0_n_n.rhsIdx_val_of_single rfl _ _).trans hk)
  rw [el, er]

theorem weightedL0 (i : S1024x256.Idx) (c : dot_S1024x1024_S1024x256_S1024x256_1_0_0_1_n_n.contr.Idx) :
    (dot_S1024x1024_S1024x256_S1024x256_1_0_0_1_n_n.lhsIdx i c 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl

theorem weightedR1 (i : S1024x256.Idx) (c : dot_S1024x1024_S1024x256_S1024x256_1_0_0_1_n_n.contr.Idx) :
    (dot_S1024x1024_S1024x256_S1024x256_1_0_0_1_n_n.rhsIdx i c 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The second product, rows times columns, into a zero accumulator: at (a, d) the sum over q of the left operand
    at (a, q) times the right at (q, d). -/
theorem weighted_apply (l : FVec Ideal S1024x1024 .bf16) (r : FVec Ideal S1024x256 .bf16) (a : Fin 1024) (d : Fin 256) :
    matmul dot_S1024x1024_S1024x256_S1024x256_1_0_0_1_n_n none l r (constant S1024x256 .f32 0x00000000#32) (ix2 a d)
      = ∑ q : Fin 1024, l (ix2 a q) * r (ix2 q d) := by
  refine (Ideal.matmul_constant_zero_apply dot_S1024x1024_S1024x256_S1024x256_1_0_0_1_n_n none l r (ix2 a d)).trans ?_
  rw [← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 a d) ((ValueIdx.contrEquiv1 dot_S1024x1024_S1024x256_S1024x256_1_0_0_1_n_n 1024 rfl rfl).symm k) = ix2 a k := funext fun ax => Fin.ext (by
    match ax with
    | ⟨0, _⟩ => exact weightedL0 _ _
    | ⟨1, _⟩ => exact (dot_S1024x1024_S1024x256_S1024x256_1_0_0_1_n_n.lhsIdx_val_of_single rfl _ _).trans hk)
  have er : dot_S1024x1024_S1024x256_S1024x256_1_0_0_1_n_n.rhsIdx (ix2 a d) ((ValueIdx.contrEquiv1 dot_S1024x1024_S1024x256_S1024x256_1_0_0_1_n_n 1024 rfl rfl).symm k) = ix2 k d := funext fun ax => Fin.ext (by
    match ax with
    | ⟨0, _⟩ => exact (dot_S1024x1024_S1024x256_S1024x256_1_0_0_1_n_n.rhsIdx_val_of_single rfl _ _).trans hk
    | ⟨1, _⟩ => exact weightedR1 _ _)
  rw [el, er]

/-! ## The stored value -/

/-- The body's stored value at (a, d), from the four loaded blocks. -/
theorem pay_apply (x0 : FVec Ideal S1024x256 .f32) (x1 x2 : FVec Ideal S1024x256 .bf16) (x3 : FVec Ideal S1x1024 .f32)
    (a : Fin 1024) (d : Fin 256) :
    k0_pay1 (F := Ideal) x0 x1 x2 x3 (ix2 a d)
      = ∑ q : Fin 1024, Ideal.exp ((∑ k : Fin 256, x0 (ix2 a k) * x1 (ix2 q k)) + (∑ k : Fin 256, x0 (ix2 a k) * x0 (ix2 a k)) * negHalf
          + x3 (ix2 (0 : Fin 1) q)) * x2 (ix2 q d) := by
  unfold k0_pay1
  dsimp only
  refine (weighted_apply _ _ a d).trans (Finset.sum_congr rfl fun q _ => ?_)
  rw [truncf_apply, exp_apply, addf_apply, addf_apply, cross_apply, columnBroadcast_apply, mulf_apply, column_apply,
    rowSum_apply, rowBroadcast_apply, shapeCast_self, shapeCast_self, shapeCast_self, broadcast_apply]
  simp only [truncf_apply, mulf_apply, broadcast_apply, Ideal.ofBits_def, ofBits_one, mul_one, ofBits_negHalf]
  rfl

end Cert.KernelIdeal.Body

end
-- ==== Proof.Staged.lean ====
/-
  What the pipeline's resident windows hold when the region is entered.  The host operations before the region leave:
  the prototypes and the projection, converted to the narrower float format (the identity on the extended reals), in
  the arrays of windows 1 and 2; and in the array of window 3 the one row `q ↦ (−1/2) · ‖p_q‖²` (the row sums of the
  squared prototypes from a zero initial value, recast as a [1, 1024] row, times the broadcast constant).
-/
import proofs.«166600_j43069932044620_2_alg».proof.Proof.Gen.KernelIdeal.Frame
import proofs.«166600_j43069932044620_2_alg».proof.Proof.RbfMix
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.RbfMix

variable (m : (ℓ : Loc nD τ sig) → Buf (Elt Ideal) ℓ)

/-- Window 1's array holds the prototypes. -/
theorem protos (c : Dev nD) :
    (V m c main_v5 : S1024x256.Idx → EReal) = (m ((c : Thread nD τ).loc main_arg1) : S1024x256.Idx → EReal) := by
  dsimp only [Gen.V, Gen.hostOps0]
  after_results
  rfl

/-- Window 2's array holds the projection. -/
theorem proj (c : Dev nD) :
    (V m c main_v6 : S1024x256.Idx → EReal) = (m ((c : Thread nD τ).loc main_arg2) : S1024x256.Idx → EReal) := by
  dsimp only [Gen.V, Gen.hostOps0]
  after_results
  rfl

/-- Window 3's array as the host operations' term of the prototypes. -/
theorem scaledNorms_term (c : Dev nD) :
    (V m c main_v4 : S1x1024.Idx → EReal)
      = mulf (broadcastInDim S1x1024 ![] bcast_S_S1x1024 (constant (F := Ideal) S_ .f32 0xBF000000#32))
          (shapeCast S1x1024 (Host.reduceAdd (F := Ideal) (mulf (m ((c : Thread nD τ).loc main_arg1)) (m ((c : Thread nD τ).loc main_arg1)))
            (constant (F := Ideal) S_ .f32 0x00000000#32) reducesTo_S1024x256_S1024_d1 h_S_) shapeCasts_S1024_S1x1024) := by
  dsimp only [Gen.V, Gen.hostOps0]
  after_results
  rfl

/-- The host operations' term for window 3, over any array of prototypes: its one row at q is `(−1/2) · ‖p_q‖²`. -/
theorem scaledRow_apply (p : FVec Ideal S1024x256 .f32) (q : Fin 1024) :
    mulf (broadcastInDim S1x1024 ![] bcast_S_S1x1024 (constant (F := Ideal) S_ .f32 0xBF000000#32))
        (shapeCast S1x1024 (Host.reduceAdd (F := Ideal) (mulf p p) (constant (F := Ideal) S_ .f32 0x00000000#32)
          reducesTo_S1024x256_S1024_d1 h_S_) shapeCasts_S1024_S1x1024) (ix2 (0 : Fin 1) q)
      = negHalf * normSqP p q := by
  rw [mulf_apply, shapeCast_a_1a_apply]
  have hb : broadcastInDim S1x1024 ![] bcast_S_S1x1024 (constant (F := Ideal) S_ .f32 0xBF000000#32) (ix2 (0 : Fin 1) q) = negHalf :=
    ofBits_negHalf
  have hs : Host.reduceAdd (F := Ideal) (mulf p p) (constant (F := Ideal) S_ .f32 0x00000000#32) reducesTo_S1024x256_S1024_d1 h_S_ (ix1 q)
      = normSqP p q := by
    simp only [Host.reduceAdd, Ideal.hostReduceAdd_def]
    rw [Ideal.hostReduceAdd_single reducesTo_S1024x256_S1024_d1 (by decide)]
    rw [show constant (F := Ideal) S_ .f32 0x00000000#32 (Shape.Idx.first h_S_) = 0 from Ideal.ofBits_zero_f32, zero_add]
    unfold normSqP
    refine Finset.sum_congr rfl fun k _ => ?_
    rw [mulf_apply]
    exact congrArg (fun v => p v * p v) (funext fun ax => Fin.ext (by
      match ax with
      | ⟨0, _⟩ => rfl
      | ⟨1, _⟩ => rfl))
  rw [hb, hs]

/-- Window 3's one row at q is `(−1/2) · ‖p_q‖²`. -/
theorem scaledNorms_apply (c : Dev nD) (q : Fin 1024) :
    (V m c main_v4 : S1x1024.Idx → EReal) (ix2 (0 : Fin 1) q) = negHalf * normSqP (m ((c : Thread nD τ).loc main_arg1)) q := by
  rw [scaledNorms_term]
  exact scaledRow_apply _ q

end Cert.KernelIdeal.Staged

end
-- ==== Proof.Whole.lean ====
/-
  From blocks to the whole array.  Grid point `t` (of 128) holds rows `1024 t … 1024 t + 1023` of `x`, the whole of the
  prototypes, of the projection and of the row of scaled prototype norms, and writes back rows `1024 t … 1024 t + 1023`
  of the result.  So what point `t` writes is block `t` of the mixture `RbfMix.mix` of the argument arrays
  (`flushed_eq`: the body's stored value at (a, d), with each loaded block read where it sits in its array, is the
  mixture at (1024 t + a, d)); the 128 blocks cover the array (row `r` is in block `r / 1024`); hence the result array
  ends holding the mixture (`final`), and the run is restated with that (`run`).
-/
import proofs.«166600_j43069932044620_2_alg».proof.Proof.Gen.KernelIdeal.Value
import proofs.«166600_j43069932044620_2_alg».proof.Proof.Body
import proofs.«166600_j43069932044620_2_alg».proof.Proof.Staged

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.RbfMix

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: windows 0 and 4 move down the rows with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- Row `a` of point `t`'s block is row `1024 t + a` of the array. -/
def rowOf (t : Fin cfg0.N) (a : Fin 1024) : Fin 131072 := ⟨t.val * 1024 + a.val, by have := point_lt t; have := a.isLt; omega⟩

/-! ## Each loaded block, read where it sits in its array -/

theorem xBlock (c : Dev nD) (t : Fin cfg0.N) (a : Fin 1024) (k : Fin 256) :
    (iblk m c 0 t : S1024x256.Idx → EReal) (ix2 a k)
      = (m ((c : Thread nD τ).loc main_arg0) : S131072x256.Idx → EReal) (ix2 (rowOf t a) k) := by
  obtain ⟨e0, e1, -⟩ := idx_facts t
  rw [← V_main_arg0 m c]
  show V m c main_arg0 (((cfg0.win 0).blk t).view.emb (ix2 a k)) = V m c main_arg0 (ix2 (rowOf t a) k)
  refine congrArg (V m c main_arg0) (funext fun ax => Fin.ext ?_)
  match ax with
  | ⟨0, _⟩ => show win0_0.index t (0 : Fin 2) * 1024 + 1 * a.val = t.val * 1024 + a.val; rw [e0]; omega
  | ⟨1, _⟩ => show win0_0.index t (1 : Fin 2) * 256 + 1 * k.val = k.val; rw [e1]; omega

theorem protoBlock (c : Dev nD) (t : Fin cfg0.N) (q : Fin 1024) (k : Fin 256) :
    (iblk m c 1 t : S1024x256.Idx → EReal) (ix2 q k)
      = (m ((c : Thread nD τ).loc main_arg1) : S1024x256.Idx → EReal) (ix2 q k) := by
  obtain ⟨-, -, e0, e1, -⟩ := idx_facts t
  rw [← Staged.protos m c]
  show V m c main_v5 (((cfg0.win 1).blk t).view.emb (ix2 q k)) = V m c main_v5 (ix2 q k)
  refine congrArg (V m c main_v5) (funext fun ax => Fin.ext ?_)
  match ax with
  | ⟨0, _⟩ => show win0_1.index t (0 : Fin 2) * 1024 + 1 * q.val = q.val; rw [e0]; omega
  | ⟨1, _⟩ => show win0_1.index t (1 : Fin 2) * 256 + 1 * k.val = k.val; rw [e1]; omega

theorem projBlock (c : Dev nD) (t : Fin cfg0.N) (q : Fin 1024) (d : Fin 256) :
    (iblk m c 2 t : S1024x256.Idx → EReal) (ix2 q d)
      = (m ((c : Thread nD τ).loc main_arg2) : S1024x256.Idx → EReal) (ix2 q d) := by
  obtain ⟨-, -, -, -, e0, e1, -⟩ := idx_facts t
  rw [← Staged.proj m c]
  show V m c main_v6 (((cfg0.win 2).blk t).view.emb (ix2 q d)) = V m c main_v6 (ix2 q d)
  refine congrArg (V m c main_v6) (funext fun ax => Fin.ext ?_)
  match ax with
  | ⟨0, _⟩ => show win0_2.index t (0 : Fin 2) * 1024 + 1 * q.val = q.val; rw [e0]; omega
  | ⟨1, _⟩ => show win0_2.index t (1 : Fin 2) * 256 + 1 * d.val = d.val; rw [e1]; omega

theorem normsBlock (c : Dev nD) (t : Fin cfg0.N) (q : Fin 1024) :
    (iblk m c 3 t : S1x1024.Idx → EReal) (ix2 (0 : Fin 1) q)
      = negHalf * normSqP (m ((c : Thread nD τ).loc main_arg1)) q := by
  obtain ⟨-, -, -, -, -, -, e0, e1, -⟩ := idx_facts t
  rw [← Staged.scaledNorms_apply m c q]
  show V m c main_v4 (((cfg0.win 3).blk t).view.emb (ix2 (0 : Fin 1) q)) = V m c main_v4 (ix2 (0 : Fin 1) q)
  refine congrArg (V m c main_v4) (funext fun ax => Fin.ext ?_)
  match ax with
  | ⟨0, _⟩ => show win0_3.index t (0 : Fin 2) * 1 + 1 * 0 = 0; rw [e0]
  | ⟨1, _⟩ => show win0_3.index t (1 : Fin 2) * 1024 + 1 * q.val = q.val; rw [e1]; omega

/-! ## What a point stores is its block of the mixture -/

/-- The body's stored value, over ANY four blocks that read as the arrays' rows do, is the mixture at the block's row. -/
theorem stored_eq (x : SB.Idx → EReal) (p w : SP.Idx → EReal) (x0 : FVec Ideal S1024x256 .f32) (x1 x2 : FVec Ideal S1024x256 .bf16)
    (x3 : FVec Ideal S1x1024 .f32) (r : Fin 131072) (a : Fin 1024) (d : Fin 256)
    (h0 : ∀ k : Fin 256, x0 (ix2 a k) = x (ix2 r k))
    (h1 : ∀ (q : Fin 1024) (k : Fin 256), x1 (ix2 q k) = p (ix2 q k))
    (h2 : ∀ q : Fin 1024, x2 (ix2 q d) = w (ix2 q d))
    (h3 : ∀ q : Fin 1024, x3 (ix2 (0 : Fin 1) q) = negHalf * normSqP p q) :
    k0_pay1 (F := Ideal) x0 x1 x2 x3 (ix2 a d) = mixAt x p w r d := by
  rw [Body.pay_apply]
  unfold mixAt expo Cert.RbfMix.inner normSqB
  refine Finset.sum_congr rfl fun q _ => ?_
  rw [h2 q, h3 q]
  simp only [h0, h1]

/-- WHAT POINT `t` WRITES BACK is block `t` of the mixture of the argument arrays. -/
theorem flushed_eq (c : Dev nD) (t : Fin cfg0.N) :
    (dats m 0 c).flushed 4 t = ((cfg0.win 4).blk t).view.read (Elt Ideal)
      (mix (m ((c : Thread nD τ).loc main_arg0)) (m ((c : Thread nD τ).loc main_arg1)) (m ((c : Thread nD τ).loc main_arg2))) := by
  rw [Value.flushed4]
  unfold out0_4
  rw [View.canon_unit_zero hz]
  simp only [View.ld_unit_zero (S := S1024x256) hz, View.ld_unit_zero (S := S1x1024) hz]
  obtain ⟨-, -, -, -, -, -, -, -, e0, e1⟩ := idx_facts t
  funext j
  obtain ⟨a, d, rfl⟩ : ∃ (a : Fin 1024) (d : Fin 256), j = ix2 a d := ⟨j 0, j 1, eq_ix2 j⟩
  have hemb : ((cfg0.win 4).blk t).view.emb (ix2 a d) = (ix2 (rowOf t a) d : S131072x256.Idx) := by
    funext ax; apply Fin.ext
    match ax with
    | ⟨0, _⟩ => show win0_4.index t (0 : Fin 2) * 1024 + 1 * a.val = t.val * 1024 + a.val; rw [e0]; omega
    | ⟨1, _⟩ => show win0_4.index t (1 : Fin 2) * 256 + 1 * d.val = d.val; rw [e1]; omega
  show k0_pay1 (F := Ideal) (iblk m c 0 t) (iblk m c 1 t) (iblk m c 2 t) (iblk m c 3 t) (ix2 a d)
    = mix (m ((c : Thread nD τ).loc main_arg0)) (m ((c : Thread nD τ).loc main_arg1)) (m ((c : Thread nD τ).loc main_arg2))
        (((cfg0.win 4).blk t).view.emb (ix2 a d))
  rw [hemb, mix_ix2]
  exact stored_eq (m ((c : Thread nD τ).loc main_arg0)) (m ((c : Thread nD τ).loc main_arg1)) (m ((c : Thread nD τ).loc main_arg2))
    (iblk m c 0 t) (iblk m c 1 t) (iblk m c 2 t) (iblk m c 3 t) (rowOf t a) a d
    (fun k => xBlock m c t a k) (fun q k => protoBlock m c t q k) (fun q => projBlock m c t q d) (fun q => normsBlock m c t q)

/-! ## The blocks cover the array -/

/-- An index of the array is in point `t`'s block iff each coordinate is in the block's range on its axis. -/
theorem mem_blk (t : Fin cfg0.N) (i : S131072x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v7).slice (win0_4.rect t)).set ↔ _
  rw [View.set_slice_whole, Rect.mem_set_unit]
  exact Iff.rfl

/-- Row `r` is in the block of point `r / 1024`. -/
theorem cover (i : S131072x256.Idx) : ∃ t : Fin cfg0.N, (cfg0.win 4).flush t = true ∧ i ∈ ((cfg0.win 4).blk t).view.set := by
  have hi0 : (i 0).val < 131072 := (i 0).isLt
  have hi1 : (i 1).val < 256 := (i 1).isLt
  have hN : cfg0.N = 128 := N_0
  have ht : (i 0).val / 1024 < cfg0.N := by rw [hN]; omega
  obtain ⟨-, -, -, -, -, -, -, -, e0, e1⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_4.index ⟨(i 0).val / 1024, ht⟩ (1 : Fin 2) * 256 ≤ (i 1).val ∧ (i 1).val < win0_4.index ⟨(i 0).val / 1024, ht⟩ (1 : Fin 2) * 256 + 256
    rw [e1]
    omega

/-! ## The result array, and the run -/

/-- THE RESULT ARRAY after the run is the mixture of the argument arrays. -/
theorem final (c : Dev nD) : (dats m 0 c).arrAt 4 cfg0.N
    = mix (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run: the result array ends at the mixture, the arguments unchanged. -/
theorem run : θ_run defs (onTc (τ := τ) (main (F := Ideal))) ⟨m, fun _ => 0, ρ⟩ fun r => ∀ c : Dev nD,
      r.2.mem ((c : Thread nD τ).loc main_v7)
        = mix (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The radial-basis kernel against its reference, on the extended reals.

  Both programs compute, from `x : [131072, 256]`, prototypes `p : [1024, 256]` and a projection `w : [1024, 256]`,

      out (b, d) = ∑ q, exp (−‖x_b − p_q‖² / 2) · w (q, d).

  The kernel takes 1024 rows of `x` per grid point and adds the exponent up as
  `⟨x_b, p_q⟩ + ‖x_b‖² · (−1/2) + (−1/2) · ‖p_q‖²` (the last summand prepared before the region); the reference forms
  `−((‖x_b‖² + ‖p_q‖²) − 2 ⟨x_b, p_q⟩) / 2`.  The two agree on real numbers, and the precondition says every input
  entry is real (Proof/Finite.lean), so both result arrays are the one function `RbfMix.mix` of the argument arrays:
  the kernel's by Proof/Whole.lean (each point writes its block of the mixture, and the blocks cover the array), over
  the body's stored value read at an index (Proof/Body.lean) and the contents of the resident windows
  (Proof/Staged.lean); the reference's by Proof/RefMix.lean.  The changes of float format on the way into the two matrix
  products are the identity on the extended reals, so the idealization rewrote nothing and `preserves` is trivial.
  The three frames are the programs' runs with the results dropped.
-/
import proofs.«166600_j43069932044620_2_alg».proof.Defs
import proofs.«166600_j43069932044620_2_alg».proof.Proof.Gen.Kernel
import proofs.«166600_j43069932044620_2_alg».proof.Proof.Gen.Kernel.Frame
import proofs.«166600_j43069932044620_2_alg».proof.Proof.Gen.KernelIdeal
import proofs.«166600_j43069932044620_2_alg».proof.Proof.Gen.KernelIdeal.Frame
import proofs.«166600_j43069932044620_2_alg».proof.Proof.Gen.KernelIdeal.Value
import proofs.«166600_j43069932044620_2_alg».proof.Proof.Gen.ReferenceIdeal
import proofs.«166600_j43069932044620_2_alg».proof.Proof.Gen.ReferenceIdeal.Run
import proofs.«166600_j43069932044620_2_alg».proof.Proof.Gen.ReferenceIdeal.Read
import proofs.«166600_j43069932044620_2_alg».proof.Proof.Gen.Pre_finite_inputs
import proofs.«166600_j43069932044620_2_alg».proof.Proof.RbfMix
import proofs.«166600_j43069932044620_2_alg».proof.Proof.Finite
import proofs.«166600_j43069932044620_2_alg».proof.Proof.RefMix
import proofs.«166600_j43069932044620_2_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: the idealized kernel is the kernel's own text read on the extended reals. -/
theorem preserves : Cert.preserves_Kernel_KernelIdeal := trivial

/-- From memories that agree on the arguments, whose entries the precondition makes real, the kernel's result array
    ends at the mixture of its arguments and the reference's at the same mixture. -/
theorem algebraic : Cert.algebraic_KernelIdeal_ReferenceIdeal := by
  intro m ρ m' ρ' hpre hagree
  refine ⟨fun c => Cert.RbfMix.mix (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hx, hp, -⟩ := Cert.Pre_finite_inputs.Finite.entries_real _ _ _ (hpre c)
  choose xr hxr using hx
  choose pr hpr using hp
  exact (Cert.ReferenceIdeal.Read.val_main_v17_eq _ _ _).trans
    (Cert.ReferenceIdeal.RefValue.result_eq _ _ _ xr pr hxr hpr)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
